-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S4x1x1 : Shape := ⟨3, ![4, 1, 1]⟩
abbrev S1x4096x3 : Shape := ⟨3, ![1, 4096, 3]⟩
abbrev S1x3x4096 : Shape := ⟨3, ![1, 3, 4096]⟩
abbrev S1x1x1 : Shape := ⟨3, ![1, 1, 1]⟩
abbrev S1x4096x1 : Shape := ⟨3, ![1, 4096, 1]⟩
abbrev S4096x1 : Shape := ⟨2, ![4096, 1]⟩
abbrev S1x1x4096 : Shape := ⟨3, ![1, 1, 4096]⟩
abbrev S1x4096 : Shape := ⟨2, ![1, 4096]⟩
abbrev S4096x3 : Shape := ⟨2, ![4096, 3]⟩
abbrev S3x4096 : Shape := ⟨2, ![3, 4096]⟩
abbrev S4096x4096 : Shape := ⟨2, ![4096, 4096]⟩
abbrev S4096 : Shape := ⟨1, ![4096]⟩
abbrev S1 : Shape := ⟨1, ![1]⟩
abbrev S1x1 : Shape := ⟨2, ![1, 1]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S4x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1x1, .f32⟩
  | .local _ .vmem, ⟨5, _⟩ => ⟨S1x1x1, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4x4096x3_S4x3x4096_0_2_1 : S4x4096x3.Transposes [0, 2, 1] S4x3x4096
  inb_S1x4096x3_S1x4096x1_0_0_0 : ∀ a, (![0, 0, 0] : Fin 3 → Nat) a + S1x4096x1.size a ≤ S1x4096x3.size a
  h_S1x4096x1 : 0 < S1x4096x1.numel
  shapeCasts_S1x4096x1_S4096x1 : S1x4096x1.ShapeCasts S4096x1
  inb_S1x4096x3_S1x4096x1_0_0_1 : ∀ a, (![0, 0, 1] : Fin 3 → Nat) a + S1x4096x1.size a ≤ S1x4096x3.size a
  inb_S1x4096x3_S1x4096x1_0_0_2 : ∀ a, (![0, 0, 2] : Fin 3 → Nat) a + S1x4096x1.size a ≤ S1x4096x3.size a
  inb_S1x3x4096_S1x1x4096_0_0_0 : ∀ a, (![0, 0, 0] : Fin 3 → Nat) a + S1x1x4096.size a ≤ S1x3x4096.size a
  h_S1x1x4096 : 0 < S1x1x4096.numel
  shapeCasts_S1x1x4096_S1x4096 : S1x1x4096.ShapeCasts S1x4096
  inb_S1x3x4096_S1x1x4096_0_1_0 : ∀ a, (![0, 1, 0] : Fin 3 → Nat) a + S1x1x4096.size a ≤ S1x3x4096.size a
  inb_S1x3x4096_S1x1x4096_0_2_0 : ∀ a, (![0, 2, 0] : Fin 3 → Nat) a + S1x1x4096.size a ≤ S1x3x4096.size a
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  bitsLt_bf16_f32 : FTy.bits .bf16 < FTy.bits .f32
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  broadcasts_S4096x1_S4096x4096 : S4096x1.Broadcasts S4096x4096
  reduces_S4096x4096_S4096 : S4096x4096.Reduces [0] S4096
  shapeCasts_S4096_S1x4096 : S4096.ShapeCasts S1x4096
  shapeCasts_S1x4096_S1x1x4096 : S1x4096.ShapeCasts S1x1x4096
  reduces_S1x1x4096_S1 : S1x1x4096.Reduces [1, 2] S1
  shapeCasts_S1_S1x1x1 : S1.ShapeCasts S1x1x1
  inpos_S1x1x1_p0_0_0 : ∀ a, (![0, 0, 0] : Fin 3 → Nat) a < S1x1x1.size a
  broadcasts_S1x4096_S4096x4096 : S1x4096.Broadcasts S4096x4096
  reduces_S4096x4096_S4096_2 : S4096x4096.Reduces [1] S4096
  shapeCasts_S4096_S4096x1 : S4096.ShapeCasts S4096x1
  shapeCasts_S4096x1_S1x4096x1 : S4096x1.ShapeCasts S1x4096x1
  reduces_S1x4096x1_S1 : S1x4096x1.Reduces [1, 2] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S4x1x1_S_d0_1_2 : S4x1x1.ReducesTo [0, 1, 2] S_
  h_S_ : 0 < S_.numel
  dot_S4096x3_S3x4096_S4096x4096_1_0_0_1_n_n_wf : DotDims.WF S4096x3 S3x4096 S4096x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S4x4096x3.size a
  hwx0_0 : ∀ i : grid0.Coords, EltTy.bits .f32 = 32 ∨ (Rect.block (s := S4x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S4x3x4096.size a
  hwx0_1 : ∀ i : grid0.Coords, EltTy.bits .f32 = 32 ∨ (Rect.block (s := S4x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S4x1x1.size a
  hwx0_2 : ∀ i : grid0.Coords, EltTy.bits .f32 = 32 ∨ (Rect.block (s := S4x1x1) S1x1x1.size (cc0_transform_2 i) (hinb0_2 i)).WholeWords (EltTy.packing .f32)

variable [Facts₀]

def dot_S4096x3_S3x4096_S4096x4096_1_0_0_1_n_n : DotDims S4096x3 S3x4096 S4096x4096 where
  lhsContracting := [1]
  rhsContracting := [0]
  lhsNonContracting := [0]
  rhsNonContracting := [1]
  lhsBatch := []
  rhsBatch := []
  wf := dot_S4096x3_S3x4096_S4096x4096_1_0_0_1_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4 : Shape := ⟨1, ![4]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S4x1x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S_, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096x4096_S4x4096_d1 : S4x4096x4096.ReducesTo [1] S4x4096
  reducesTo_S4x4096_S4_d1 : S4x4096.ReducesTo [1] S4
  bcast_S_S4 : S_.BroadcastsInDim S4 (![] : Fin 0 → Fin S4.rank)
  reducesTo_S4_S_d0 : S4.ReducesTo [0] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.LibKeepdims.lean ====
/-
  Layout operations around a KEPT UNIT AXIS, read at an index, and sums over index sets with unit axes.

  A reduction with `keepdims=True` leaves a unit axis where the reduced axis was: a vector of length `a` is recast as an
  `a × 1` column (`shapeCast_a_a1_apply`), and such a column is broadcast along its unit axis to an `a × b` array
  (`broadcastTo_a1_ab_apply`). A sum over the indices of a shape whose axes are all of size one but one is the sum over
  that axis's coordinates (`sum_idx1`, `sum_idx3_11a`, `sum_idx3_1a1`, `sum_idx3_a11`): the indices are in bijection
  with the coordinates.
-/
import Idealize.ShloMosaic.Lib.ValueIdx
import Idealize.ShloMosaic.Lib.ValueLayout
import Idealize.ShloMosaic.Lib.Pipeline.Value

namespace Idealize.ShloMosaic.Keepdims

open Idealize.ShloMosaic.ValueIdx

variable {α : Type}

/-- A vector recast as a column: entry `(i, 0)` of the column is entry `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis: entry `(p, c)` of the result is entry `(p, 0)` of the column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the indices of a vector is the sum over its coordinates. -/
theorem sum_idx1 {M : Type*} [AddCommMonoid M] {n : ℕ} (f : (⟨1, ![n]⟩ : Shape).Idx → M) :
    ∑ i, f i = ∑ a : Fin n, f (ix1 a) := by
  refine (Function.Bijective.sum_comp (e := fun a : Fin n => (ix1 a : (⟨1, ![n]⟩ : Shape).Idx)) ⟨?_, ?_⟩ f).symm
  · intro a a' h; exact congrFun h 0
  · intro j; exact ⟨j 0, (eq_ix1 j).symm⟩

/-- A sum over the indices of a `1 × 1 × n` array is the sum over the last coordinate. -/
theorem sum_idx3_11a {M : Type*} [AddCommMonoid M] {n : ℕ} (f : (⟨3, ![1, 1, n]⟩ : Shape).Idx → M) :
    ∑ i, f i = ∑ a : Fin n, f (ix3 (0 : Fin 1) (0 : Fin 1) a) := by
  refine (Function.Bijective.sum_comp
    (e := fun a : Fin n => (ix3 (0 : Fin 1) (0 : Fin 1) a : (⟨3, ![1, 1, n]⟩ : Shape).Idx)) ⟨?_, ?_⟩ f).symm
  · intro a a' h; exact congrFun h 2
  · intro j
    have h0 : (j 0).val = 0 := by have : (j 0).val < 1 := (j 0).isLt; omega
    have h1 : (j 1).val = 0 := by have : (j 1).val < 1 := (j 1).isLt; omega
    exact ⟨j 2, funext fun d => match d with
      | ⟨0, _⟩ => Fin.ext h0.symm
      | ⟨1, _⟩ => Fin.ext h1.symm
      | ⟨2, _⟩ => rfl⟩

/-- A sum over the indices of a `1 × n × 1` array is the sum over the middle coordinate. -/
theorem sum_idx3_1a1 {M : Type*} [AddCommMonoid M] {n : ℕ} (f : (⟨3, ![1, n, 1]⟩ : Shape).Idx → M) :
    ∑ i, f i = ∑ a : Fin n, f (ix3 (0 : Fin 1) a (0 : Fin 1)) := by
  refine (Function.Bijective.sum_comp
    (e := fun a : Fin n => (ix3 (0 : Fin 1) a (0 : Fin 1) : (⟨3, ![1, n, 1]⟩ : Shape).Idx)) ⟨?_, ?_⟩ f).symm
  · intro a a' h; exact congrFun h 1
  · intro j
    have h0 : (j 0).val = 0 := by have : (j 0).val < 1 := (j 0).isLt; omega
    have h2 : (j 2).val = 0 := by have : (j 2).val < 1 := (j 2).isLt; omega
    exact ⟨j 1, funext fun d => match d with
      | ⟨0, _⟩ => Fin.ext h0.symm
      | ⟨1, _⟩ => rfl
      | ⟨2, _⟩ => Fin.ext h2.symm⟩

/-- A sum over the indices of an `n × 1 × 1` array is the sum over the first coordinate. -/
theorem sum_idx3_a11 {M : Type*} [AddCommMonoid M] {n : ℕ} (f : (⟨3, ![n, 1, 1]⟩ : Shape).Idx → M) :
    ∑ i, f i = ∑ a : Fin n, f (ix3 a (0 : Fin 1) (0 : Fin 1)) := by
  refine (Function.Bijective.sum_comp
    (e := fun a : Fin n => (ix3 a (0 : Fin 1) (0 : Fin 1) : (⟨3, ![n, 1, 1]⟩ : Shape).Idx)) ⟨?_, ?_⟩ f).symm
  · intro a a' h; exact congrFun h 0
  · intro j
    have h1 : (j 1).val = 0 := by have : (j 1).val < 1 := (j 1).isLt; omega
    have h2 : (j 2).val = 0 := by have : (j 2).val < 1 := (j 2).isLt; omega
    exact ⟨j 0, funext fun d => match d with
      | ⟨0, _⟩ => rfl
      | ⟨1, _⟩ => Fin.ext h1.symm
      | ⟨2, _⟩ => Fin.ext h2.symm⟩

end Idealize.ShloMosaic.Keepdims
-- ==== Proof.LibFoldMin.lean ====
/-
  Folds of `min` over a finite set in a linear order, and the square root on the extended reals.

  * A monotone map commutes with `min`, hence with a fold of `min`: applying it to the fold is the fold of the images,
    started from the image of the starting value (`map_fold_min`).
  * The starting value of such a fold does not matter as long as it lies above some element of the (nonempty) family:
    two folds over one family from two such starting values agree (`fold_min_congr_init`).
  * The extended-real square root (`⊥` below zero and at `⊥`, `√r` at a real `r ≥ 0`, `⊤` at `⊤`) is monotone
    (`sqrt_mono`), and so is `x ↦ √(max (x + c) e)` (`sqrt_max_add_mono`).
-/
import Idealize.ShloMosaic.PureOps.Ideal

namespace Idealize.ShloMosaic.FoldMin

variable {ι : Type} {β γ : Type} [LinearOrder β] [LinearOrder γ]

/-- A monotone map applied to a fold of `min` is the fold of `min` over the images, from the image of the start. -/
theorem map_fold_min (s : Finset ι) (f : β → γ) (hf : Monotone f) (b : β) (g : ι → β) :
    f (s.fold min b g) = s.fold min (f b) (fun k => f (g k)) :=
  (Finset.fold_hom (op := min) (op' := min) (m := f) (fun _ _ => hf.map_min)).symm

/-- The fold of `min` from `b` lies below the fold from `b'` when some element of the family lies below `b'`. -/
theorem fold_min_le_fold_min (s : Finset ι) (b b' : β) (g : ι → β) (h : ∃ k ∈ s, g k ≤ b') :
    s.fold min b g ≤ s.fold min b' g := by
  obtain ⟨k, hk, hkb⟩ := h
  exact (Finset.le_fold_min _).2
    ⟨(Finset.fold_min_le _).2 (Or.inr ⟨k, hk, hkb⟩), fun x hx => (Finset.fold_min_le _).2 (Or.inr ⟨x, hx, le_rfl⟩)⟩

/-- Two starting values that each lie above some element of the family give the same fold of `min`. -/
theorem fold_min_congr_init (s : Finset ι) (b b' : β) (g : ι → β) (h : ∃ k ∈ s, g k ≤ b) (h' : ∃ k ∈ s, g k ≤ b') :
    s.fold min b g = s.fold min b' g :=
  le_antisymm (fold_min_le_fold_min s b b' g h') (fold_min_le_fold_min s b' b g h)

/-- The same for two families that agree pointwise. -/
theorem fold_min_congr (s : Finset ι) (b b' : β) (g g' : ι → β) (hg : ∀ k ∈ s, g k = g' k)
    (h : ∃ k ∈ s, g k ≤ b) (h' : ∃ k ∈ s, g k ≤ b') : s.fold min b g = s.fold min b' g' := by
  rw [fold_min_congr_init s b b' g h h']
  exact Finset.fold_congr hg

/-- The extended-real square root is monotone: below zero it is `⊥`, from zero on it is the real root, at `⊤` it is `⊤`. -/
theorem sqrt_mono : Monotone Ideal.sqrt := by
  intro x y h
  induction x using EReal.rec with
  | bot => exact bot_le
  | top =>
    obtain rfl : y = ⊤ := top_le_iff.mp h
    exact le_rfl
  | coe r =>
    induction y using EReal.rec with
    | bot => exact absurd h (by simp)
    | top => exact le_top
    | coe s =>
      have hrs : r ≤ s := EReal.coe_le_coe_iff.mp h
      rw [Ideal.sqrt_coe, Ideal.sqrt_coe]
      by_cases h1 : r < 0
      · rw [if_pos h1]; exact bot_le
      · rw [if_neg h1, if_neg (fun h2 => h1 (lt_of_le_of_lt hrs h2))]
        exact EReal.coe_le_coe_iff.mpr (Real.sqrt_le_sqrt hrs)

/-- `x ↦ √(max (x + c) e)` is monotone on the extended reals: each of its three steps is. -/
theorem sqrt_max_add_mono (c e : EReal) : Monotone fun x : EReal => Ideal.sqrt (max (x + c) e) :=
  fun _ _ h => sqrt_mono (max_le_max (add_le_add h le_rfl) le_rfl)

end Idealize.ShloMosaic.FoldMin
-- ==== Proof.ChamferLaw.lean ====
/-
  The Chamfer loss of two finite families of points of 3-space, in two spellings, over the extended reals.

  For points `P n`, `T m` with squared norms `|P n|²`, `|T m|²` and cross terms `2 (P n · T m)`, write
  `d²(n, m) = |P n|² + |T m|² - 2 (P n · T m)` and `ρ x = √(max x ε)`. The loss of one batch is
  `Σ_n min_m ρ (d²(n, m)) + Σ_m min_n ρ (d²(n, m))` (each term scaled by a weight).

  * The FOLDED spelling keeps the rank-one term outside the minimum: `ρ ((min_m (|T m|² - 2 P n · T m)) + |P n|²)`, the factor
    `2` inside the dot product's first operand, the norms added coordinate by coordinate.
  * The PLAIN spelling takes the minimum of `ρ (d²(n, m))`, the factor `2` outside the dot product, the norms as sums from `0`.

  They agree on all extended reals (no finiteness is used): addition is commutative, associative and monotone, `ρ` is
  monotone, a monotone map commutes with a minimum over a nonempty family (whatever value above the family the minimum starts
  from), and the nonnegative real `2` distributes over any sum of extended reals.
-/
import proofs.«110031_g31086973289139_cont_9to1_1619_19_alg».proof.Proof.LibFoldMin

noncomputable section

namespace Idealize.ShloMosaic.Chamfer

open Idealize.ShloMosaic.FoldMin

variable {ι κ : Type} [Fintype ι] [Fintype κ]

/-- `√(max x ε)`. -/
def root (eps x : EReal) : EReal := Ideal.sqrt (max x eps)

/-- The squared norm, coordinate by coordinate. -/
def normSq (x : Fin 3 → EReal) : EReal := x 0 * x 0 + x 1 * x 1 + x 2 * x 2

/-- The squared norm as a sum started from `z`. -/
def normSqFrom (z : EReal) (x : Fin 3 → EReal) : EReal := z + ∑ d : Fin 3, x d * x d

/-- Twice the dot product, the factor inside the first operand. -/
def crossIn (two : EReal) (x y : Fin 3 → EReal) : EReal := ∑ d : Fin 3, x d * two * y d

/-- Twice the dot product, the factor outside. -/
def crossOut (two : EReal) (x y : Fin 3 → EReal) : EReal := two * ∑ d : Fin 3, x d * y d

/-- The squared distance as the plain spelling computes it. -/
def distSq (z two : EReal) (x y : Fin 3 → EReal) : EReal := normSqFrom z x + normSqFrom z y - crossOut two x y

/-- One batch's loss, folded spelling. -/
def lossFolded (one eps top two : EReal) (P : ι → Fin 3 → EReal) (T : κ → Fin 3 → EReal) : EReal :=
  one * (∑ n, root eps (Finset.univ.fold min top (fun m => normSq (T m) - crossIn two (P n) (T m)) + normSq (P n)))
    + one * (∑ m, root eps (Finset.univ.fold min top (fun n => normSq (P n) - crossIn two (P n) (T m)) + normSq (T m)))

/-- One batch's loss, plain spelling. -/
def lossPlain (one eps top two z : EReal) (P : ι → Fin 3 → EReal) (T : κ → Fin 3 → EReal) : EReal :=
  one * (z + ∑ n, Finset.univ.fold min top (fun m => root eps (distSq z two (P n) (T m))))
    + one * (z + ∑ m, Finset.univ.fold min top (fun n => root eps (distSq z two (P n) (T m))))

theorem normSqFrom_zero (x : Fin 3 → EReal) : normSqFrom 0 x = normSq x := by
  unfold normSqFrom normSq
  rw [Fin.sum_univ_three, zero_add]

/-- The nonnegative real `2` distributes over a sum of three extended reals, and moves out of each product. -/
theorem crossIn_eq_crossOut (x y : Fin 3 → EReal) :
    crossIn ((2 : ℝ) : EReal) x y = crossOut ((2 : ℝ) : EReal) x y := by
  unfold crossIn crossOut
  have h0 : (0 : EReal) ≤ ((2 : ℝ) : EReal) := EReal.coe_nonneg.mpr (by norm_num)
  have ht : ((2 : ℝ) : EReal) ≠ ⊤ := EReal.coe_ne_top _
  rw [Fin.sum_univ_three, Fin.sum_univ_three, EReal.left_distrib_of_nonneg_of_ne_top h0 ht,
    EReal.left_distrib_of_nonneg_of_ne_top h0 ht]
  have e : ∀ a b : EReal, a * ((2 : ℝ) : EReal) * b = ((2 : ℝ) : EReal) * (a * b) := fun a b => by
    rw [mul_comm a, mul_assoc]
  rw [e, e, e]

/-- The two ways of assembling a squared distance from its three terms. -/
theorem sub_add_eq (a b c : EReal) : a - c + b = b + a - c := by
  rw [sub_eq_add_neg, sub_eq_add_neg, add_right_comm, add_comm a b]

theorem sub_add_eq' (a b c : EReal) : a - c + b = a + b - c := by
  rw [sub_eq_add_neg, sub_eq_add_neg, add_right_comm]

/-- A minimum started from `⊤`, shifted and passed through `ρ`, is the minimum of the shifted and passed terms. -/
theorem root_fold_min_add {σ : Type} [Fintype σ] [Nonempty σ] (eps c : EReal) (a b : σ → EReal)
    (hab : ∀ k, root eps (a k + c) = b k) :
    root eps (Finset.univ.fold min ⊤ a + c) = Finset.univ.fold min ⊤ b := by
  have hm := sqrt_max_add_mono c eps
  obtain ⟨k0⟩ := ‹Nonempty σ›
  refine (map_fold_min Finset.univ (fun x : EReal => Ideal.sqrt (max (x + c) eps)) hm ⊤ a).trans ?_
  exact fold_min_congr Finset.univ _ ⊤ _ b (fun k _ => hab k)
    ⟨k0, Finset.mem_univ _, hm le_top⟩ ⟨k0, Finset.mem_univ _, le_top⟩

/-- The two spellings of one batch's loss agree. -/
theorem lossFolded_eq_lossPlain [Nonempty ι] [Nonempty κ] (one eps : EReal) (P : ι → Fin 3 → EReal) (T : κ → Fin 3 → EReal) :
    lossFolded one eps ⊤ ((2 : ℝ) : EReal) P T = lossPlain one eps ⊤ ((2 : ℝ) : EReal) 0 P T := by
  unfold lossFolded lossPlain
  rw [zero_add, zero_add]
  congr 2
  · refine Finset.sum_congr rfl fun n _ => root_fold_min_add eps _ _ _ fun m => ?_
    unfold distSq
    rw [normSqFrom_zero, normSqFrom_zero, crossIn_eq_crossOut, sub_add_eq]
  · refine Finset.sum_congr rfl fun m _ => root_fold_min_add eps _ _ _ fun n => ?_
    unfold distSq
    rw [normSqFrom_zero, normSqFrom_zero, crossIn_eq_crossOut, sub_add_eq']

end Idealize.ShloMosaic.Chamfer

end
-- ==== Proof.KernelPayload.lean ====
/-
  The kernel body's arithmetic, read at an index on the extended reals.

  One grid point holds one batch: a block `x0` of 4096 points of 3-space (rows `n`, coordinates `d`) and a block `x1` of 4096
  points stored coordinate-major (rows `d`, columns `m`). The body computes the squared norms of both families (a column
  `pn` and a row `tn`), the cross terms `pt2[n, m] = Σ_d (x0[n, d] · 2) · x1[d, m]` as one matrix product into a zero
  accumulator (the change of float format in front of it is the identity here), the column minima of `pn - pt2` and the row
  minima of `tn - pt2` (each minimum started from `+∞`'s bit pattern), adds the other norm back, clamps below by `ε`, takes
  square roots, sums each family, and stores `1 · (sum over n) + 1 · (sum over m)`.
  Each payload below is read at an index as that formula; the last lemma states the stored value as the folded spelling of the
  batch's Chamfer loss (ChamferLaw.lean) of the two families.
-/
import proofs.«110031_g31086973289139_cont_9to1_1619_19_alg».proof.Proof.Gen.KernelIdeal.Skeleton
import proofs.«110031_g31086973289139_cont_9to1_1619_19_alg».proof.Proof.LibKeepdims
import proofs.«110031_g31086973289139_cont_9to1_1619_19_alg».proof.Proof.ChamferLaw
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Idealize.ShloMosaic.Keepdims Idealize.ShloMosaic.Chamfer
open Cert.KernelIdeal Cert.KernelIdeal.Gen

/-- The body's literals as extended reals: the weight `1.0`, the clamp `ε`, the minima's start `+∞`, the factor `2.0` (in the
    sixteen-bit format), and the sums' start `0.0`. -/
abbrev one : EReal := Ideal.ofBits .f32 0x3F800000#32
abbrev eps : EReal := Ideal.ofBits .f32 0x2B8CBCCC#32
abbrev top : EReal := Ideal.ofBits .f32 0x7F800000#32
abbrev two16 : EReal := Ideal.ofBits .bf16 0x4000#16

/-! ## The norms -/

/-- The column of squared norms of the first family: entry `(n, 0)` from the three coordinate columns of the block. -/
theorem pay2_apply (v0 v2 v4 : FVec Ideal S1x4096x1 .f32) (n : Fin 4096) :
    k0_pay2 (F := Ideal) v0 v2 v4 (ix2 n (0 : Fin 1))
      = v0 (ix3 (0 : Fin 1) n (0 : Fin 1)) * v0 (ix3 (0 : Fin 1) n (0 : Fin 1))
        + v2 (ix3 (0 : Fin 1) n (0 : Fin 1)) * v2 (ix3 (0 : Fin 1) n (0 : Fin 1))
        + v4 (ix3 (0 : Fin 1) n (0 : Fin 1)) * v4 (ix3 (0 : Fin 1) n (0 : Fin 1)) := by
  unfold k0_pay2
  simp only [addf_apply, mulf_apply, shapeCast_1ab_ab_apply]

/-- The row of squared norms of the second family: entry `(0, m)` from the three coordinate rows of the block. -/
theorem pay3_apply (v11 v13 v15 : FVec Ideal S1x1x4096 .f32) (m : Fin 4096) :
    k0_pay3 (F := Ideal) v11 v13 v15 (ix2 (0 : Fin 1) m)
      = v11 (ix3 (0 : Fin 1) (0 : Fin 1) m) * v11 (ix3 (0 : Fin 1) (0 : Fin 1) m)
        + v13 (ix3 (0 : Fin 1) (0 : Fin 1) m) * v13 (ix3 (0 : Fin 1) (0 : Fin 1) m)
        + v15 (ix3 (0 : Fin 1) (0 : Fin 1) m) * v15 (ix3 (0 : Fin 1) (0 : Fin 1) m) := by
  unfold k0_pay3
  simp only [addf_apply, mulf_apply, shapeCast_1ab_ab_apply]

/-! ## The cross terms: the matrix product read at an entry -/

theorem lhs_row (i : S4096x4096.Idx) (q : dot_S4096x3_S3x4096_S4096x4096_1_0_0_1_n_n.contr.Idx) :
    (dot_S4096x3_S3x4096_S4096x4096_1_0_0_1_n_n.lhsIdx i q 0).val = (i 0).val := by
  unfold DotDims.lhsIdx
  rw [dif_neg (show ¬(0 : Fin S4096x3.rank) ∈ dot_S4096x3_S3x4096_S4096x4096_1_0_0_1_n_n.lhsBatch by decide),
    dif_pos (show (0 : Fin S4096x3.rank) ∈ dot_S4096x3_S3x4096_S4096x4096_1_0_0_1_n_n.lhsNonContracting by decide)]
  rfl

theorem rhs_col (i : S4096x4096.Idx) (q : dot_S4096x3_S3x4096_S4096x4096_1_0_0_1_n_n.contr.Idx) :
    (dot_S4096x3_S3x4096_S4096x4096_1_0_0_1_n_n.rhsIdx i q 1).val = (i 1).val := by
  unfold DotDims.rhsIdx
  rw [dif_neg (show ¬(1 : Fin S3x4096.rank) ∈ dot_S4096x3_S3x4096_S4096x4096_1_0_0_1_n_n.rhsBatch by decide),
    dif_pos (show (1 : Fin S3x4096.rank) ∈ dot_S4096x3_S3x4096_S4096x4096_1_0_0_1_n_n.rhsNonContracting by decide)]
  rfl

/-- Entry `(n, m)` of the product is the sum over the three coordinates of `(x0[n, d] · 2) · x1[d, m]`. -/
theorem pay4_apply (v22 : FVec Ideal S1x4096x3 .f32) (v27 : FVec Ideal S1x3x4096 .f32) (n m : Fin 4096) :
    k0_pay4 (F := Ideal) v22 v27 (ix2 n m)
      = ∑ k : Fin 3, v22 (ix3 (0 : Fin 1) n k) * two16 * v27 (ix3 (0 : Fin 1) k m) := by
  unfold k0_pay4
  simp only [matmul]
  rw [Ideal.matmul_constant_zero_apply, ← Equiv.sum_comp (contrEquiv1 dot_S4096x3_S3x4096_S4096x4096_1_0_0_1_n_n 3 rfl rfl).symm]
  refine Finset.sum_congr rfl fun k _ => ?_
  have hk := contrEquiv1_symm_val dot_S4096x3_S3x4096_S4096x4096_1_0_0_1_n_n 3 rfl rfl k
  have el : dot_S4096x3_S3x4096_S4096x4096_1_0_0_1_n_n.lhsIdx (ix2 n m) ((contrEquiv1 dot_S4096x3_S3x4096_S4096x4096_1_0_0_1_n_n 3 rfl rfl).symm k) = ix2 n k :=
    funext fun a => Fin.ext (by
      match a with
      | ⟨0, _⟩ => exact lhs_row _ _
      | ⟨1, _⟩ => exact (dot_S4096x3_S3x4096_S4096x4096_1_0_0_1_n_n.lhsIdx_val_of_single rfl _ _).trans hk)
  have er : dot_S4096x3_S3x4096_S4096x4096_1_0_0_1_n_n.rhsIdx (ix2 n m) ((contrEquiv1 dot_S4096x3_S3x4096_S4096x4096_1_0_0_1_n_n 3 rfl rfl).symm k) = ix2 k m :=
    funext fun a => Fin.ext (by
      match a with
      | ⟨0, _⟩ => exact (dot_S4096x3_S3x4096_S4096x4096_1_0_0_1_n_n.rhsIdx_val_of_single rfl _ _).trans hk
      | ⟨1, _⟩ => exact rhs_col _ _)
  rw [el, er]
  simp only [mulf_apply, truncf_apply, broadcast_apply, shapeCast_1ab_ab_apply]
  rfl

/-- Entry `(n, m)` of `pn - pt2`. -/
theorem pay5_apply (v0 v2 v4 : FVec Ideal S1x4096x1 .f32) (v22 : FVec Ideal S1x4096x3 .f32) (v27 : FVec Ideal S1x3x4096 .f32)
    (n m : Fin 4096) :
    k0_pay5 (F := Ideal) v0 v2 v4 v22 v27 (ix2 n m)
      = k0_pay2 (F := Ideal) v0 v2 v4 (ix2 n (0 : Fin 1)) - k0_pay4 (F := Ideal) v22 v27 (ix2 n m) := by
  unfold k0_pay5
  simp only [subf_apply, broadcastTo_a1_ab_apply]

/-! ## The minima -/

/-- The square root of an array, read at an entry. -/
theorem sqrt_apply {s : Shape} (a : FVec Ideal s .f32) (i : s.Idx) : sqrt a i = Ideal.sqrt (a i) := rfl

/-- The minimum down a column of a `4096 × 4096` array, started from the accumulator's value. -/
theorem colMin_apply (src : FVec Ideal S4096x4096 .f32) (h : S4096x4096.Reduces [0] S4096) (hφ : FKind.Formats .f32)
    (hacc : (0x7F800000#32 : BitVec 32) = FKind.minimumf.neutral .f32 hφ) (m : Fin 4096) :
    multiReduction .minimumf [0] S4096 src 0x7F800000#32 h hφ hacc (ix1 m)
      = Finset.univ.fold min top (fun n : Fin 4096 => src (ix2 n m)) := by
  rw [multiReduction_minimumf_eq_fold]
  refine (h.fold_filter_drop_single FloatOps.minimumf _ src (ix1 m)).trans ?_
  show Finset.fold min top (fun k : Fin 4096 => src (h.lift (ix1 m) k)) Finset.univ = _
  refine Finset.fold_congr fun n _ => ?_
  exact congrArg src (funext fun a => Fin.ext (by match a with | ⟨0, _⟩ => rfl | ⟨1, _⟩ => rfl))

/-- The minimum along a row of a `4096 × 4096` array, started from the accumulator's value. -/
theorem rowMin_apply (src : FVec Ideal S4096x4096 .f32) (h : S4096x4096.Reduces [1] S4096) (hφ : FKind.Formats .f32)
    (hacc : (0x7F800000#32 : BitVec 32) = FKind.minimumf.neutral .f32 hφ) (n : Fin 4096) :
    multiReduction .minimumf [1] S4096 src 0x7F800000#32 h hφ hacc (ix1 n)
      = Finset.univ.fold min top (fun m : Fin 4096 => src (ix2 n m)) := by
  rw [multiReduction_minimumf_eq_fold]
  refine (h.fold_filter_drop_single FloatOps.minimumf _ src (ix1 n)).trans ?_
  show Finset.fold min top (fun k : Fin 4096 => src (h.lift (ix1 n) k)) Finset.univ = _
  refine Finset.fold_congr fun m _ => ?_
  exact congrArg src (funext fun a => Fin.ext (by match a with | ⟨0, _⟩ => rfl | ⟨1, _⟩ => rfl))

/-! ## The two sums -/

/-- The sum of every entry of a row recast as `1 × 1 × 4096`: a constant function of the (one) result index. -/
theorem sumRow_eq (A : FVec Ideal S1x4096 .f32) (hc : S1x4096.ShapeCasts S1x1x4096) (h : S1x1x4096.Reduces [1, 2] S1)
    (hφ : FKind.Formats .f32) (hacc : (0x00000000#32 : BitVec 32) = FKind.add.neutral .f32 hφ) :
    multiReduction .add [1, 2] S1 (shapeCast S1x1x4096 A hc) 0x00000000#32 h hφ hacc
      = fun _ => ∑ m : Fin 4096, A (ix2 (0 : Fin 1) m) := by
  funext j
  rw [Ideal.multiReduction_add_total _ _ h (by decide) hφ hacc j, sum_idx3_11a]
  exact Finset.sum_congr rfl fun m _ => shapeCast_ab_1ab_apply A hc 0 0 m

/-- The sum of every entry of a column recast as `1 × 4096 × 1`: a constant function of the (one) result index. -/
theorem sumCol_eq (B : FVec Ideal S4096x1 .f32) (hc : S4096x1.ShapeCasts S1x4096x1) (h : S1x4096x1.Reduces [1, 2] S1)
    (hφ : FKind.Formats .f32) (hacc : (0x00000000#32 : BitVec 32) = FKind.add.neutral .f32 hφ) :
    multiReduction .add [1, 2] S1 (shapeCast S1x4096x1 B hc) 0x00000000#32 h hφ hacc
      = fun _ => ∑ n : Fin 4096, B (ix2 n (0 : Fin 1)) := by
  funext j
  rw [Ideal.multiReduction_add_total _ _ h (by decide) hφ hacc j, sum_idx3_1a1]
  exact Finset.sum_congr rfl fun n _ => shapeCast_ab_1ab_apply B hc 0 n 0

/-! ## The stored value -/

/-- The end of the body: each of the two sums, a constant function of a one-entry index, is recast, its entry taken and spread
    over a `1 × 1` array, weighted, the two added and recast: the entry stored is `c1 · s1 + c2 · s2`. -/
theorem store_tail (c1 c2 s1 s2 : Ideal .f32) (h1 : S1.ShapeCasts S1x1x1) (hp : ∀ a, (![0, 0, 0] : Fin 3 → Nat) a < S1x1x1.size a)
    (h2 : S1x1.ShapeCasts S1x1x1) (y : S1x1x1.Idx) :
    shapeCast S1x1x1
        (addf (F := Ideal)
          (mulf (broadcast S1x1 c1) (broadcast S1x1 (extractAt ![0, 0, 0] (shapeCast S1x1x1 (fun _ : S1.Idx => s1) h1) hp)))
          (mulf (broadcast S1x1 c2) (broadcast S1x1 (extractAt ![0, 0, 0] (shapeCast S1x1x1 (fun _ : S1.Idx => s2) h1) hp))))
        h2 y
      = c1 * s1 + c2 * s2 := rfl

set_option backward.isDefEq.respectTransparency.types false in
/-- What the body stores, from its four intermediate arrays: `1 · Σ_n ρ (min_m (tn[m] - pt2[n, m]) + pn[n])
    + 1 · Σ_m ρ (min_n (pn - pt2)[n, m] + tn[m])` with `ρ x = √(max x ε)`. -/
theorem pay1_apply (v10 : FVec Ideal S4096x1 .f32) (v21 : FVec Ideal S1x4096 .f32) (v30 v32 : FVec Ideal S4096x4096 .f32)
    (y : S1x1x1.Idx) :
    k0_pay1 (F := Ideal) v10 v21 v30 v32 y
      = one * (∑ n : Fin 4096, root eps (Finset.univ.fold min top (fun m : Fin 4096 =>
            v21 (ix2 (0 : Fin 1) m) - v30 (ix2 n m)) + v10 (ix2 n (0 : Fin 1))))
        + one * (∑ m : Fin 4096, root eps (Finset.univ.fold min top (fun n : Fin 4096 => v32 (ix2 n m))
            + v21 (ix2 (0 : Fin 1) m))) := by
  unfold k0_pay1
  dsimp only
  rw [sumRow_eq, sumCol_eq]
  refine (store_tail _ _ _ _ _ _ _ y).trans ?_
  refine congrArg₂ (· + ·) (congrArg (one * ·) (Finset.sum_congr rfl fun n _ => ?_))
    (congrArg (one * ·) (Finset.sum_congr rfl fun m _ => ?_))
  · unfold root
    rw [sqrt_apply, maximumf_apply, addf_apply, broadcast_apply, shapeCast_a_a1_apply, rowMin_apply]
    simp only [subf_apply, broadcastTo_1b_ab_apply, Ideal.ofBits_def]
  · unfold root
    rw [sqrt_apply, maximumf_apply, addf_apply, broadcast_apply, shapeCast_a_1a_apply, colMin_apply]
    simp only [Ideal.ofBits_def]

end Cert.KernelIdeal.Body

end
-- ==== Proof.KernelBlock.lean ====
/-
  From one grid point's block to the kernel's result.

  The grid has four points, one per batch `b`. At point `b` the first window's block is batch `b` of the first argument
  (4096 points × 3 coordinates), the second window's block is batch `b` of the second argument TRANSPOSED by the host line
  before the call (3 coordinates × 4096 points), and the output window's block is entry `(b, 0, 0)` of a `4 × 1 × 1` array.
  The body stores there the folded spelling of batch `b`'s Chamfer loss (KernelPayload.lean, ChamferLaw.lean); the four
  blocks cover the output array, so after the call entry `(b, 0, 0)` holds batch `b`'s loss; the two host lines after the call
  sum the four entries from `0` and divide by `4`.
-/
import proofs.«110031_g31086973289139_cont_9to1_1619_19_alg».proof.Proof.Gen.KernelIdeal.Frame
import proofs.«110031_g31086973289139_cont_9to1_1619_19_alg».proof.Proof.KernelPayload
import Idealize.ShloMosaic.Lib.Pipeline.Value
import Idealize.ShloMosaic.Lib.Pipeline.FrameSuffix
import Idealize.ShloMosaic.Lib.ValueLayout
import Idealize.ShloMosaic.Lib.StableHlo.Run

noncomputable section

open Idealize.ShloMosaic Idealize.ShloMosaic.TcCoe Idealize.SL.Sem
open Idealize.ShloMosaic.ValueIdx Idealize.ShloMosaic.Chamfer
open Idealize.ShloMosaic.Pipeline (Dat)

namespace Cert.KernelIdeal.Block

open Cert.KernelIdeal Cert.KernelIdeal.Gen Cert.KernelIdeal.Body

variable (m : (ℓ : Loc nD τ sig) → Buf (Elt Ideal) ℓ) (ρ : Dev nD → PrngReg)

theorem hz3 : (![0, 0, 0] : Fin 3 → Nat) = fun _ => 0 := funext fun a => by fin_cases a <;> rfl

/-! ## The loads through the blocks' coordinate columns and rows -/

theorem idx_col0 (n : Fin 4096) : r0_0.idx (ix3 (0 : Fin 1) n (0 : Fin 1)) = ix3 (0 : Fin 1) n (0 : Fin 3) :=
  funext fun a => Fin.ext (by
    match a with
    | ⟨0, _⟩ => rfl
    | ⟨1, _⟩ => show 0 + 1 * n.val = n.val; omega
    | ⟨2, _⟩ => rfl)
theorem idx_col1 (n : Fin 4096) : r0_1.idx (ix3 (0 : Fin 1) n (0 : Fin 1)) = ix3 (0 : Fin 1) n (1 : Fin 3) :=
  funext fun a => Fin.ext (by
    match a with
    | ⟨0, _⟩ => rfl
    | ⟨1, _⟩ => show 0 + 1 * n.val = n.val; omega
    | ⟨2, _⟩ => rfl)
theorem idx_col2 (n : Fin 4096) : r0_2.idx (ix3 (0 : Fin 1) n (0 : Fin 1)) = ix3 (0 : Fin 1) n (2 : Fin 3) :=
  funext fun a => Fin.ext (by
    match a with
    | ⟨0, _⟩ => rfl
    | ⟨1, _⟩ => show 0 + 1 * n.val = n.val; omega
    | ⟨2, _⟩ => rfl)
theorem idx_row0 (k : Fin 4096) : r0_3.idx (ix3 (0 : Fin 1) (0 : Fin 1) k) = ix3 (0 : Fin 1) (0 : Fin 3) k :=
  funext fun a => Fin.ext (by
    match a with
    | ⟨0, _⟩ => rfl
    | ⟨1, _⟩ => rfl
    | ⟨2, _⟩ => show 0 + 1 * k.val = k.val; omega)
theorem idx_row1 (k : Fin 4096) : r0_4.idx (ix3 (0 : Fin 1) (0 : Fin 1) k) = ix3 (0 : Fin 1) (1 : Fin 3) k :=
  funext fun a => Fin.ext (by
    match a with
    | ⟨0, _⟩ => rfl
    | ⟨1, _⟩ => rfl
    | ⟨2, _⟩ => show 0 + 1 * k.val = k.val; omega)
theorem idx_row2 (k : Fin 4096) : r0_5.idx (ix3 (0 : Fin 1) (0 : Fin 1) k) = ix3 (0 : Fin 1) (2 : Fin 3) k :=
  funext fun a => Fin.ext (by
    match a with
    | ⟨0, _⟩ => rfl
    | ⟨1, _⟩ => rfl
    | ⟨2, _⟩ => show 0 + 1 * k.val = k.val; omega)

/-! ## What the body stores -/

/-- The one entry the body stores is the folded Chamfer loss of the two families its blocks hold: points `n ↦ x0[0, n, ·]` and
    `k ↦ x1[0, ·, k]`. -/
theorem out_apply (x0 : Vec Ideal S1x4096x3 .f32) (x1 : Vec Ideal S1x3x4096 .f32) (y : S1x1x1.Idx) :
    out0_2 (F := Ideal) x0 x1 y
      = lossFolded one eps top two16 (fun (n : Fin 4096) (d : Fin 3) => x0 (ix3 (0 : Fin 1) n d))
          (fun (k : Fin 4096) (d : Fin 3) => x1 (ix3 (0 : Fin 1) d k)) := by
  unfold out0_2
  rw [View.canon_unit_zero hz3, pay1_apply]
  simp only [View.ld_unit_zero (S := S1x4096x3) hz3, View.ld_unit_zero (S := S1x3x4096) hz3]
  simp only [pay5_apply, pay2_apply, pay3_apply, pay4_apply]
  simp only [View.ld, idx_col0, idx_col1, idx_col2, idx_row0, idx_row1, idx_row2]
  rfl

/-! ## The blocks, read off the arrays -/

/-- The printed index maps over the four grid points: every window's block at point `t` is at block `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The first window's block at point `t` is batch `t` of its array. -/
theorem iblk0_apply (c : Dev nD) (t : Fin cfg0.N) (b : Fin 4) (hb : b.val = t.val) (n : Fin 4096) (d : Fin 3) :
    (iblk m c 0 t : Vec Ideal S1x4096x3 .f32) (ix3 (0 : Fin 1) n d) = V m c main_arg0 (ix3 b n d) := by
  obtain ⟨e0, e1, e2, -⟩ := idx_facts t
  show V m c main_arg0 (((cfg0.win 0).blk t).view.emb (ix3 (0 : Fin 1) n d)) = _
  refine congrArg (V m c main_arg0) (funext fun a => Fin.ext ?_)
  match a with
  | ⟨0, _⟩ => show win0_0.index t (0 : Fin 3) * 1 + 1 * 0 = b.val; rw [e0, hb]; omega
  | ⟨1, _⟩ => show win0_0.index t (1 : Fin 3) * 4096 + 1 * n.val = n.val; rw [e1]; omega
  | ⟨2, _⟩ => show win0_0.index t (2 : Fin 3) * 3 + 1 * d.val = d.val; rw [e2]; omega

/-- The second window's block at point `t` is batch `t` of its array. -/
theorem iblk1_apply (c : Dev nD) (t : Fin cfg0.N) (b : Fin 4) (hb : b.val = t.val) (d : Fin 3) (k : Fin 4096) :
    (iblk m c 1 t : Vec Ideal S1x3x4096 .f32) (ix3 (0 : Fin 1) d k) = V m c main_v0 (ix3 b d k) := by
  obtain ⟨-, -, -, e0, e1, e2, -⟩ := idx_facts t
  show V m c main_v0 (((cfg0.win 1).blk t).view.emb (ix3 (0 : Fin 1) d k)) = _
  refine congrArg (V m c main_v0) (funext fun a => Fin.ext ?_)
  match a with
  | ⟨0, _⟩ => show win0_1.index t (0 : Fin 3) * 1 + 1 * 0 = b.val; rw [e0, hb]; omega
  | ⟨1, _⟩ => show win0_1.index t (1 : Fin 3) * 3 + 1 * d.val = d.val; rw [e1]; omega
  | ⟨2, _⟩ => show win0_1.index t (2 : Fin 3) * 4096 + 1 * k.val = k.val; rw [e2]; omega

/-! ## The output array after the call -/

/-- Entry `i` of the output array: the folded loss of batch `i 0` of the two arrays the windows stage. -/
def perBatch (A0 : S4x4096x3.Idx → EReal) (A1 : S4x3x4096.Idx → EReal) : S4x1x1.Idx → EReal := fun i =>
  lossFolded one eps top two16 (fun (n : Fin 4096) (d : Fin 3) => A0 (ix3 (⟨(i 0).val, (i 0).isLt⟩ : Fin 4) n d))
    (fun (k : Fin 4096) (d : Fin 3) => A1 (ix3 (⟨(i 0).val, (i 0).isLt⟩ : Fin 4) d k))

/-- What point `t` writes back is block `t` of `perBatch` of the staged arrays. -/
theorem flushed_eq (c : Dev nD) (t : Fin cfg0.N) :
    (dats m 0 c).flushed 2 t
      = ((cfg0.win 2).blk t).view.read (Elt Ideal) (perBatch (V m c main_arg0) (V m c main_v0)) := by
  show (cfg0.win 2).cut (grid0.coords t) ((dats m 0 c).after 2 t) = _
  rw [after0_2]
  obtain ⟨-, -, -, -, -, -, e0, -, -⟩ := idx_facts t
  funext y
  show out0_2 (iblk m c 0 t) (iblk m c 1 t) y
    = perBatch (V m c main_arg0) (V m c main_v0) (((cfg0.win 2).blk t).view.emb y)
  rw [out_apply]
  unfold perBatch
  have hy : (y 0).val = 0 := by have : (y 0).val < 1 := (y 0).isLt; omega
  have hb : ((((cfg0.win 2).blk t).view.emb y) 0).val = t.val := by
    show win0_2.index t (0 : Fin 3) * 1 + 1 * (y 0).val = t.val
    rw [e0, hy]; omega
  congr 1
  · funext n d; exact iblk0_apply m c t _ hb n d
  · funext k d; exact iblk1_apply m c t _ hb d k

/-- An index of the output array is in point `t`'s block iff each coordinate is in the block's range on its axis. -/
theorem mem_blk (t : Fin cfg0.N) (i : S4x1x1.Idx) :
    i ∈ ((cfg0.win 2).blk t).view.set
      ↔ ∀ a : Fin 3, win0_2.index t a * S1x1x1.size a ≤ (i a).val ∧ (i a).val < win0_2.index t a * S1x1x1.size a + S1x1x1.size a := by
  show i ∈ ((View.whole main_v1).slice (win0_2.rect t)).set ↔ _
  rw [View.set_slice_whole, Rect.mem_set_unit]
  exact Iff.rfl

/-- The four blocks cover the output array, so it ends holding `perBatch` of the staged arrays. -/
theorem final (c : Dev nD) : (dats m 0 c).arrAt 2 cfg0.N = perBatch (V m c main_arg0) (V m c main_v0) :=
  (dats m 0 c).arrAt_eq_of_cover 2 _ (fun t _ => flushed_eq m c t) fun i => by
    have h0 : (i 0).val < 4 := (i 0).isLt
    have h1 : (i 1).val < 1 := (i 1).isLt
    have h2 : (i 2).val < 1 := (i 2).isLt
    obtain ⟨t, ht⟩ : ∃ t : Fin cfg0.N, t.val = (i 0).val :=
      ⟨⟨(i 0).val, by rw [show cfg0.N = 4 from N_0]; exact h0⟩, rfl⟩
    refine ⟨t, flush0_2 t, ?_⟩
    rw [mem_blk]
    obtain ⟨-, -, -, -, -, -, e0, e1, e2⟩ := idx_facts t
    intro a
    match a with
    | ⟨0, _⟩ =>
      show win0_2.index t (0 : Fin 3) * 1 ≤ (i 0).val ∧ (i 0).val < win0_2.index t (0 : Fin 3) * 1 + 1
      rw [e0, ht]; omega
    | ⟨1, _⟩ =>
      show win0_2.index t (1 : Fin 3) * 1 ≤ (i 1).val ∧ (i 1).val < win0_2.index t (1 : Fin 3) * 1 + 1
      rw [e1]; omega
    | ⟨2, _⟩ =>
      show win0_2.index t (2 : Fin 3) * 1 ≤ (i 2).val ∧ (i 2).val < win0_2.index t (2 : Fin 3) * 1 + 1
      rw [e2]; omega

/-! ## The host lines around the call -/

/-- The host line before the call leaves the second window's array at the transpose of the second argument. -/
theorem V_main_v0 (c : Dev nD) :
    (V m c main_v0 : S4x3x4096.Idx → EReal)
      = transpose S4x3x4096 [0, 2, 1] (m ((c : Thread nD τ).loc main_arg1)) transposes_S4x4096x3_S4x3x4096_0_2_1 := by
  show StableHlo.after hostOps0 (fun b => m (c, b)) (Proc.devRef .tc main_v0) = _
  after_results

/-- The program's result from the output array: its four entries summed from `0`, divided by `4`. -/
def tailOf (X : S4x1x1.Idx → EReal) : S_.Idx → EReal :=
  Host.divf (F := Ideal) (Host.reduceAdd (F := Ideal) X (constant (F := Ideal) S_ .f32 0x00000000#32) reducesTo_S4x1x1_S_d0_1_2 h_S_)
    (constant (F := Ideal) S_ .f32 0x40800000#32)

/-- The host lines after the call leave the result at `tailOf` of the output array. -/
theorem tail_eq (c : Dev nD) :
    Pipeline.afterTail₀ cfgs (dats m) 0 (V0 m) [hostOps1] c main_v3
      = tailOf (perBatch (V m c main_arg0) (V m c main_v0)) := by
  unfold Pipeline.afterTail₀
  show StableHlo.after hostOps1 _ (Proc.devRef .tc main_v3) = _
  after_results
  rw [(Pipeline.withArrays_arr spec0 launch0.win.arr_inj c _ _ 2).trans (final m c)]
  rfl

/-- The run, read: the result at `tailOf` of the per-batch losses, the arguments unchanged. -/
theorem run : θ_run defs (onTc (τ := τ) (main (F := Ideal))) ⟨m, fun _ => 0, ρ⟩ fun r => ∀ c : Dev nD,
      r.2.mem ((c.tc : Thread nD τ).loc main_v3) = tailOf (perBatch (V m c main_arg0) (V m c main_v0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Block

end
-- ==== Proof.RefValue.lean ====
/-
  The reference's result, read as the plain spelling of the Chamfer loss.

  The reference forms, for every batch `b`, the `4096 × 4096` array of `ρ (d²)` with
  `d²[b, n, k] = (0 + Σ_d x0[b, n, d]²) + (0 + Σ_d x1[b, k, d]²) - 2 · Σ_d x0[b, n, d] · x1[b, k, d]` and `ρ x = √(max x ε)`, takes
  its minima along `k` and along `n` (each started from `+∞`'s bit pattern), sums each family of minima from `0`, weights each
  sum by `1`, adds the two, sums over the four batches from `0` and divides by `4`.
-/
import proofs.«110031_g31086973289139_cont_9to1_1619_19_alg».proof.Proof.Gen.ReferenceIdeal.Read
import proofs.«110031_g31086973289139_cont_9to1_1619_19_alg».proof.Proof.LibKeepdims
import proofs.«110031_g31086973289139_cont_9to1_1619_19_alg».proof.Proof.ChamferLaw
import Idealize.ShloMosaic.Lib.ValueIdx
import Idealize.ShloMosaic.PureOps.Ideal.Laws

noncomputable section

namespace Cert.ReferenceIdeal.RefValue

open Idealize.ShloMosaic Idealize.ShloMosaic.ValueIdx Idealize.ShloMosaic.Keepdims Idealize.ShloMosaic.Chamfer
open Cert.ReferenceIdeal Cert.ReferenceIdeal.Gen Cert.ReferenceIdeal.Read

/-- The reference's literals as extended reals: `1.0`, `ε`, `+∞`, `2.0`, `0.0`, `4.0`. -/
abbrev one : EReal := Ideal.ofBits .f32 0x3F800000#32
abbrev eps : EReal := Ideal.ofBits .f32 0x2B8CBCCC#32
abbrev top : EReal := Ideal.ofBits .f32 0x7F800000#32
abbrev two32 : EReal := Ideal.ofBits .f32 0x40000000#32
abbrev zero : EReal := Ideal.ofBits .f32 0x00000000#32
abbrev four : EReal := Ideal.ofBits .f32 0x40800000#32

variable (x0 x1 : (⟨S4x4096x3, .f32⟩ : BufTy).Contents (Elt Ideal))

/-- Point `n` of batch `b` of an argument. -/
abbrev pt (x : (⟨S4x4096x3, .f32⟩ : BufTy).Contents (Elt Ideal)) (b : Fin 4) (n : Fin 4096) : Fin 3 → EReal :=
  fun d => x (ix3 b n d)

/-! ## The composed index functions, by coordinates -/

theorem idx_norm0 (b : Fin 4) (n k : Fin 4096) (d : Fin 3) :
    idx_main_v1 (idx_main_v4 (idx_main_v6 (ix3 b n k))) d = ix3 b n d :=
  funext fun a => Fin.ext (by match a with | ⟨0, _⟩ => rfl | ⟨1, _⟩ => rfl | ⟨2, _⟩ => rfl)
theorem idx_norm1 (b : Fin 4) (n k : Fin 4096) (d : Fin 3) :
    idx_main_v3 (idx_main_v5 (idx_main_v7 (ix3 b n k))) d = ix3 b k d :=
  funext fun a => Fin.ext (by match a with | ⟨0, _⟩ => rfl | ⟨1, _⟩ => rfl | ⟨2, _⟩ => rfl)
theorem idx_dotL (b : Fin 4) (n k : Fin 4096) (d : Fin 3) : lidx_main_v9 (ix3 b n k) d = ix3 b n d :=
  funext fun a => Fin.ext (by match a with | ⟨0, _⟩ => rfl | ⟨1, _⟩ => rfl | ⟨2, _⟩ => rfl)
theorem idx_dotR (b : Fin 4) (n k : Fin 4096) (d : Fin 3) : ridx_main_v9 (ix3 b n k) d = ix3 b k d :=
  funext fun a => Fin.ext (by match a with | ⟨0, _⟩ => rfl | ⟨1, _⟩ => rfl | ⟨2, _⟩ => rfl)
theorem idx_sum18 (b : Fin 4) (n : Fin 4096) : idx_main_v18 (ix1 b) n = ix2 b n :=
  funext fun a => Fin.ext (by match a with | ⟨0, _⟩ => rfl | ⟨1, _⟩ => rfl)
theorem idx_sum21 (b : Fin 4) (k : Fin 4096) : idx_main_v21 (ix1 b) k = ix2 b k :=
  funext fun a => Fin.ext (by match a with | ⟨0, _⟩ => rfl | ⟨1, _⟩ => rfl)

/-! ## One clamped distance -/

/-- Entry `(b, n, k)` of the array of clamped distances. -/
theorem dist_apply (b : Fin 4) (n k : Fin 4096) :
    val_main_v15 (F := Ideal) x0 x1 (ix3 b n k) = root eps (distSq zero two32 (pt x0 b n) (pt x1 b k)) := by
  rw [val_main_v15_apply, val_main_v14_apply, val_main_v12_apply, val_main_v8_apply, val_main_v6_apply, val_main_v4_apply,
    val_main_v1_apply, val_main_v7_apply, val_main_v5_apply, val_main_v3_apply, val_main_v11_apply, val_main_v10_apply,
    val_main_v9_apply, val_main_v13_apply]
  simp only [val_main_v0_apply, val_main_v2_apply, val_main_cst_apply, val_main_cst_0_apply, val_main_cst_1_apply,
    val_main_cst_2_apply, idx_norm0, idx_norm1, idx_dotL, idx_dotR, Ideal.hostUnary_sqrt_def, Ideal.maximumf_def,
    Ideal.subf_def, Ideal.addf_def, Ideal.mulf_def, Ideal.ofBits_def]
  rfl

/-! ## The minima -/

/-- The minimum over the second family's points, at point `n` of batch `b`. -/
theorem fwd_apply (b : Fin 4) (n : Fin 4096) :
    val_main_v16 (F := Ideal) x0 x1 (ix2 b n)
      = Finset.univ.fold min top (fun k : Fin 4096 => root eps (distSq zero two32 (pt x0 b n) (pt x1 b k))) := by
  unfold val_main_v16
  have h : S4x4096x4096.Reduces [2] S4x4096 := by decide
  rw [Host.reduce_eq_fold_single FloatOps.minimumf _ _ reducesTo_S4x4096x4096_S4x4096_d2 h h_S_ (ix2 b n)]
  show Finset.fold min top (fun k : Fin 4096 => val_main_v15 (F := Ideal) x0 x1 (h.lift (ix2 b n) k)) Finset.univ = _
  refine Finset.fold_congr fun k _ => ?_
  rw [← dist_apply]
  exact congrArg (val_main_v15 (F := Ideal) x0 x1)
    (funext fun a => Fin.ext (by match a with | ⟨0, _⟩ => rfl | ⟨1, _⟩ => rfl | ⟨2, _⟩ => rfl))

/-- The minimum over the first family's points, at point `k` of batch `b`. -/
theorem bwd_apply (b : Fin 4) (k : Fin 4096) :
    val_main_v17 (F := Ideal) x0 x1 (ix2 b k)
      = Finset.univ.fold min top (fun n : Fin 4096 => root eps (distSq zero two32 (pt x0 b n) (pt x1 b k))) := by
  unfold val_main_v17
  have h : S4x4096x4096.Reduces [1] S4x4096 := by decide
  rw [Host.reduce_eq_fold_single FloatOps.minimumf _ _ reducesTo_S4x4096x4096_S4x4096_d1 h h_S_ (ix2 b k)]
  show Finset.fold min top (fun n : Fin 4096 => val_main_v15 (F := Ideal) x0 x1 (h.lift (ix2 b k) n)) Finset.univ = _
  refine Finset.fold_congr fun n _ => ?_
  rw [← dist_apply]
  exact congrArg (val_main_v15 (F := Ideal) x0 x1)
    (funext fun a => Fin.ext (by match a with | ⟨0, _⟩ => rfl | ⟨1, _⟩ => rfl | ⟨2, _⟩ => rfl))

/-! ## One batch, and the result -/

/-- Batch `b`'s weighted sum of the two families of minima is the plain spelling of its Chamfer loss. -/
theorem batch_apply (b : Fin 4) :
    val_main_v24 (F := Ideal) x0 x1 (ix1 b) = lossPlain one eps top two32 zero (pt x0 b) (pt x1 b) := by
  rw [val_main_v24_apply, val_main_v20_apply, val_main_v23_apply, val_main_v19_apply, val_main_v22_apply,
    val_main_v18_apply, val_main_v21_apply]
  simp only [val_main_cst_5_apply, val_main_cst_6_apply, val_main_cst_7_apply, val_main_cst_8_apply, idx_sum18, idx_sum21,
    fwd_apply, bwd_apply, Ideal.addf_def, Ideal.mulf_def, Ideal.ofBits_def]
  rfl

/-- The reference's result: the four batches' losses summed from `0`, divided by `4`. -/
theorem result_apply (i : S_.Idx) :
    val_main_v26 (F := Ideal) x0 x1 i
      = Ideal.div (zero + ∑ b : Fin 4, lossPlain one eps top two32 zero (pt x0 b) (pt x1 b)) four := by
  rw [val_main_v26_apply, val_main_v25_apply, sum_idx1]
  simp only [val_main_cst_9_apply, val_main_cst_10_apply, batch_apply, Ideal.hostDivf_def, Ideal.ofBits_def]

end Cert.ReferenceIdeal.RefValue

end
-- ==== Proof.Consts.lean ====
/-
  The float literals whose values the proof uses, as the extended reals their bit patterns denote: the factor `2.0` in the
  sixteen-bit format (sign 0, exponent 128, fraction 0) and in the thirty-two-bit format (sign 0, exponent 128, fraction 0), both
  the real number `2`; and the pattern of `+∞` (exponent all ones, fraction 0), the top element. Every other literal of the two
  programs occurs as the same pattern on both sides and is never evaluated.
-/
import Idealize.ShloMosaic.PureOps.Ideal

noncomputable section

namespace Cert.Consts

open Idealize.ShloMosaic

/-- `2.0` in the sixteen-bit format denotes the real `2`. -/
theorem ofBits_two_bf16 : Ideal.ofBits .bf16 0x4000#16 = ((2 : ℝ) : EReal) := by
  simp [Ideal.ofBits, Ideal.ieee, -EReal.coe_mul]; norm_num

/-- `2.0` in the thirty-two-bit format denotes the real `2`. -/
theorem ofBits_two_f32 : Ideal.ofBits .f32 0x40000000#32 = ((2 : ℝ) : EReal) := by
  simp [Ideal.ofBits, Ideal.ieee, -EReal.coe_mul]; norm_num

/-- The pattern of `+∞` denotes `⊤`. -/
theorem ofBits_top_f32 : Ideal.ofBits .f32 0x7F800000#32 = ⊤ := by
  simp [Ideal.ofBits, Ideal.ieee]

end Cert.Consts

end
-- ==== Proof.Bridge.lean ====
/-
  The kernel's result and the reference's result are one extended real.

  Kernel: the output array's four entries, batch `b`'s the FOLDED spelling of the Chamfer loss of points `n ↦ A0[b, n, ·]` and
  `k ↦ A1[b, k, ·]` (the second read through the host's transpose, which undoes the coordinate-major layout), are summed from
  `0` and divided by `4`. Reference: the four batches' PLAIN spellings of the same loss, summed from `0` and divided by `4`.
  The two spellings agree (ChamferLaw.lean) once the factor `2` of either format and the minima's start `+∞` are read as the
  real `2` and `⊤`, and the sums' start as `0`; the weights `1.0`, the clamp `ε` and the divisor `4.0` are the same patterns on
  both sides and stay unevaluated.
-/
import proofs.«110031_g31086973289139_cont_9to1_1619_19_alg».proof.Proof.KernelBlock
import proofs.«110031_g31086973289139_cont_9to1_1619_19_alg».proof.Proof.RefValue
import proofs.«110031_g31086973289139_cont_9to1_1619_19_alg».proof.Proof.Consts
import Idealize.ShloMosaic.Lib.IdealHost

noncomputable section

namespace Cert.Proof.Bridge

open Idealize.ShloMosaic Idealize.ShloMosaic.ValueIdx Idealize.ShloMosaic.Keepdims Idealize.ShloMosaic.Chamfer
open Cert.KernelIdeal.Block

/-- The kernel's result as a sum over the four batches. -/
theorem kernel_result (A0 A1 : Cert.KernelIdeal.S4x4096x3.Idx → EReal)
    (h : Cert.KernelIdeal.S4x4096x3.Transposes [0, 2, 1] Cert.KernelIdeal.S4x3x4096) (i : Cert.KernelIdeal.S_.Idx) :
    tailOf (perBatch A0 (transpose Cert.KernelIdeal.S4x3x4096 [0, 2, 1] A1 h)) i
      = Ideal.div (Ideal.ofBits .f32 0x00000000#32
          + ∑ b : Fin 4, lossFolded (Ideal.ofBits .f32 0x3F800000#32) (Ideal.ofBits .f32 0x2B8CBCCC#32)
              (Ideal.ofBits .f32 0x7F800000#32) (Ideal.ofBits .bf16 0x4000#16)
              (fun (n : Fin 4096) (d : Fin 3) => A0 (ix3 b n d)) (fun (k : Fin 4096) (d : Fin 3) => A1 (ix3 b k d)))
        (Ideal.ofBits .f32 0x40800000#32) := by
  unfold tailOf
  show Ideal.div (Host.reduceAdd (F := Ideal) _ _ _ _ i) (Ideal.ofBits .f32 0x40800000#32) = _
  rw [hostReduceAdd_apply, Ideal.hostReduceAdd_total _ (fun b => b.elim0), sum_idx3_a11]
  refine congrArg (fun s => Ideal.div (Ideal.ofBits .f32 0x00000000#32 + s) (Ideal.ofBits .f32 0x40800000#32))
    (Finset.sum_congr rfl fun b _ => ?_)
  unfold perBatch
  show lossFolded _ _ _ _ (fun (n : Fin 4096) (d : Fin 3) => A0 (ix3 b n d))
      (fun (k : Fin 4096) (d : Fin 3) => transpose Cert.KernelIdeal.S4x3x4096 [0, 2, 1] A1 h (ix3 b d k)) = _
  refine congrArg (lossFolded _ _ _ _ (fun (n : Fin 4096) (d : Fin 3) => A0 (ix3 b n d)))
    (funext fun k => funext fun d => ?_)
  exact transpose_ix3_021_apply A1 h b d k

/-- The kernel's result is the reference's last stage of the same two arrays. -/
theorem result_eq (A0 A1 : Cert.KernelIdeal.S4x4096x3.Idx → EReal)
    (h : Cert.KernelIdeal.S4x4096x3.Transposes [0, 2, 1] Cert.KernelIdeal.S4x3x4096) :
    tailOf (perBatch A0 (transpose Cert.KernelIdeal.S4x3x4096 [0, 2, 1] A1 h))
      = Cert.ReferenceIdeal.Read.val_main_v26 (F := Ideal) A0 A1 := by
  funext i
  rw [kernel_result, Cert.ReferenceIdeal.RefValue.result_apply]
  show Ideal.div (Ideal.ofBits .f32 0x00000000#32 + ∑ b : Fin 4, _) (Ideal.ofBits .f32 0x40800000#32)
    = Ideal.div (Ideal.ofBits .f32 0x00000000#32
        + ∑ b : Fin 4, lossPlain (Ideal.ofBits .f32 0x3F800000#32) (Ideal.ofBits .f32 0x2B8CBCCC#32)
            (Ideal.ofBits .f32 0x7F800000#32) (Ideal.ofBits .f32 0x40000000#32) (Ideal.ofBits .f32 0x00000000#32)
            (fun (n : Fin 4096) (d : Fin 3) => A0 (ix3 b n d)) (fun (k : Fin 4096) (d : Fin 3) => A1 (ix3 b k d)))
      (Ideal.ofBits .f32 0x40800000#32)
  refine congrArg (fun s => Ideal.div (Ideal.ofBits .f32 0x00000000#32 + s) (Ideal.ofBits .f32 0x40800000#32))
    (Finset.sum_congr rfl fun b _ => ?_)
  rw [Cert.Consts.ofBits_top_f32, Cert.Consts.ofBits_two_bf16, Cert.Consts.ofBits_two_f32, Ideal.ofBits_zero_f32]
  exact lossFolded_eq_lossPlain _ _ _ _

end Cert.Proof.Bridge

end
-- ==== Proof.lean ====
/-
  The Chamfer distance of two batched point clouds: a fused kernel against the plain reference, on the extended reals.

  For each of four batches the two programs compute, from 4096 points `P n` and 4096 points `T k` of 3-space, the loss
  `Σ_n min_k ρ (d²(n, k)) + Σ_k min_n ρ (d²(n, k))` with `d²(n, k) = |P n|² + |T k|² - 2 (P n · T k)` and `ρ x = √(max x ε)`,
  and return the four losses summed and divided by four.

  * The reference (ReferenceIdeal) materializes `ρ (d²)` for every pair and takes both families of minima of it.
  * The kernel (KernelIdeal) never forms `d²`: per batch it computes the cross terms `2 (P n · T k)` as one matrix product with the
    factor `2` folded into the first operand, takes the minima of `|T k|² - 2 P n · T k` over `k` and of `|P n|² - 2 P n · T k` over
    `n`, and only then adds the other squared norm, clamps and takes the root. One grid point handles one batch; the host transposes
    the second cloud before the call and sums the four per-batch results and divides by four after it.

  Why they agree (ChamferLaw.lean): adding a constant, clamping below and the square root are monotone, so they commute with a
  minimum over a nonempty family, whatever value above the family the minimum is started from; addition of extended reals is
  commutative and associative; and the nonnegative real `2` distributes over any sum of extended reals. None of this needs the
  inputs to be finite, so the precondition is never opened.

  The modules: ChamferLaw (the two spellings and their equality), LibFoldMin and LibKeepdims (general lemmas on folds of `min`
  and on unit axes), KernelPayload (the kernel body's arithmetic at an index), KernelBlock (blocks to the output array, the host
  lines, the run), RefValue (the reference read as the plain spelling), Consts (the three literals that are evaluated), Bridge
  (the two results are one extended real). The frames of both kernels and the reference's run are the generated ones.
-/
import proofs.«110031_g31086973289139_cont_9to1_1619_19_alg».proof.Defs
import proofs.«110031_g31086973289139_cont_9to1_1619_19_alg».proof.Proof.Gen.Kernel
import proofs.«110031_g31086973289139_cont_9to1_1619_19_alg».proof.Proof.Gen.Kernel.Skeleton
import proofs.«110031_g31086973289139_cont_9to1_1619_19_alg».proof.Proof.Gen.Kernel.Launch
import proofs.«110031_g31086973289139_cont_9to1_1619_19_alg».proof.Proof.Gen.Kernel.Points
import proofs.«110031_g31086973289139_cont_9to1_1619_19_alg».proof.Proof.Gen.Kernel.Frame
import proofs.«110031_g31086973289139_cont_9to1_1619_19_alg».proof.Proof.Gen.KernelIdeal
import proofs.«110031_g31086973289139_cont_9to1_1619_19_alg».proof.Proof.Gen.KernelIdeal.Skeleton
import proofs.«110031_g31086973289139_cont_9to1_1619_19_alg».proof.Proof.Gen.KernelIdeal.Launch
import proofs.«110031_g31086973289139_cont_9to1_1619_19_alg».proof.Proof.Gen.KernelIdeal.Points
import proofs.«110031_g31086973289139_cont_9to1_1619_19_alg».proof.Proof.Gen.KernelIdeal.Frame
import proofs.«110031_g31086973289139_cont_9to1_1619_19_alg».proof.Proof.Gen.ReferenceIdeal
import proofs.«110031_g31086973289139_cont_9to1_1619_19_alg».proof.Proof.Gen.ReferenceIdeal.Run
import proofs.«110031_g31086973289139_cont_9to1_1619_19_alg».proof.Proof.Gen.ReferenceIdeal.Read
import proofs.«110031_g31086973289139_cont_9to1_1619_19_alg».proof.Proof.Gen.Pre_finite_inputs
import proofs.«110031_g31086973289139_cont_9to1_1619_19_alg».proof.Proof.Bridge
import Idealize.ShloMosaic.Adequacy
import Idealize.ShloMosaic.Init

noncomputable section

namespace Cert.Proof

open Idealize.ShloMosaic Idealize.SL.Sem

/-- The kernel as printed runs to the end, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- From memories agreeing on the two clouds, both programs end with the same extended real: the kernel's result is the four
    batches' folded losses summed and divided by four, the reference's the four plain losses summed and divided by four. -/
theorem algebraic : Cert.algebraic_KernelIdeal_ReferenceIdeal := by
  intro m ρ m' ρ' _ hagree
  refine ⟨fun c => Cert.KernelIdeal.Block.tailOf (Cert.KernelIdeal.Block.perBatch
      (Cert.KernelIdeal.Gen.V m c Cert.KernelIdeal.main_arg0) (Cert.KernelIdeal.Gen.V m c Cert.KernelIdeal.main_v0)),
    Cert.KernelIdeal.Block.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2]
  show _ = Cert.KernelIdeal.Block.tailOf (Cert.KernelIdeal.Block.perBatch
      (Cert.KernelIdeal.Gen.V m c Cert.KernelIdeal.main_arg0) (Cert.KernelIdeal.Gen.V m c Cert.KernelIdeal.main_v0))
  rw [Cert.KernelIdeal.Gen.V_main_arg0, Cert.KernelIdeal.Block.V_main_v0]
  exact (Cert.Proof.Bridge.result_eq _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
